-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : FVec F S64x4096 .f32) (main_arg2 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x4096 : Shape := ⟨2, ![16384, 4096]⟩
abbrev S64x4096 : Shape := ⟨2, ![64, 4096]⟩
abbrev S64 : Shape := ⟨1, ![64]⟩
abbrev S1x64 : Shape := ⟨2, ![1, 64]⟩
abbrev S64x16384 : Shape := ⟨2, ![64, 16384]⟩
abbrev S1024x4096 : Shape := ⟨2, ![1024, 4096]⟩
abbrev S64x1024 : Shape := ⟨2, ![64, 1024]⟩
abbrev S256x4096 : Shape := ⟨2, ![256, 4096]⟩
abbrev S256x64 : Shape := ⟨2, ![256, 64]⟩
abbrev S256 : Shape := ⟨1, ![256]⟩
abbrev S256x1 : Shape := ⟨2, ![256, 1]⟩
abbrev S64x256 : Shape := ⟨2, ![64, 256]⟩
abbrev S16384x64 : Shape := ⟨2, ![16384, 64]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S64x16384, .f32⟩
  | .hbm, ⟨5, _⟩ => ⟨S16384x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | .local _ .vmem, ⟨6, _⟩ => ⟨S64x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x4096_S256x4096_0_0 : ∀ a, (![0, 0] : Fin 2 → Nat) a + S256x4096.size a ≤ S1024x4096.size a
  h_S256x4096 : 0 < S256x4096.numel
  broadcasts_S1x64_S256x64 : S1x64.Broadcasts S256x64
  reduces_S256x64_S256 : S256x64.Reduces [1] S256
  shapeCasts_S256_S256x1 : S256.ShapeCasts S256x1
  broadcasts_S256x1_S256x64 : S256x1.Broadcasts S256x64
  transposes_S256x64_p1_0_S64x256 : S256x64.Transposes [1, 0] S64x256
  inb_S64x1024_S64x256_0_0 : ∀ a, (![0, 0] : Fin 2 → Nat) a + S64x256.size a ≤ S64x1024.size a
  h_S64x256 : 0 < S64x256.numel
  inb_S1024x4096_S256x4096_256_0 : ∀ a, (![256, 0] : Fin 2 → Nat) a + S256x4096.size a ≤ S1024x4096.size a
  inb_S64x1024_S64x256_0_256 : ∀ a, (![0, 256] : Fin 2 → Nat) a + S64x256.size a ≤ S64x1024.size a
  inb_S1024x4096_S256x4096_512_0 : ∀ a, (![512, 0] : Fin 2 → Nat) a + S256x4096.size a ≤ S1024x4096.size a
  inb_S64x1024_S64x256_0_512 : ∀ a, (![0, 512] : Fin 2 → Nat) a + S64x256.size a ≤ S64x1024.size a
  inb_S1024x4096_S256x4096_768_0 : ∀ a, (![768, 0] : Fin 2 → Nat) a + S256x4096.size a ≤ S1024x4096.size a
  inb_S64x1024_S64x256_0_768 : ∀ a, (![0, 768] : Fin 2 → Nat) a + S64x256.size a ≤ S64x1024.size a
  transposes_S64x16384_S16384x64_1_0 : S64x16384.Transposes [1, 0] S16384x64
  dot_S256x4096_S64x4096_S256x64_1_1_0_0_n_n_wf : DotDims.WF S256x4096 S64x4096 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S4096x64 : Shape := ⟨2, ![4096, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x4096_S4096x64_S16384x64_1_0_0_1_n_n_wf : DotDims.WF S16384x4096 S4096x64 S16384x64 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Softmax.lean ====
/-
  The function both programs compute, over the extended reals.

  A token row r has 64 logits  L r e = (Σ_k x[r,k] · W[e,k]) + b[e].  Its gate is the softmax of that row taken the
  numerically stable way:  m r = max_e L r e  (folded from −∞),  p r e = exp (L r e − m r),  gate r e = p r e / Σ_e' p r e'.
  Every operation is the exact one on the extended reals; nothing below asks the inputs to be finite, because the two
  programs apply the same operations to the same numbers and differ only in how they tile and lay out the arrays.
-/
import Idealize.ShloMosaic.PureOps.Ideal
import Idealize.ShloMosaic.PureOps.Ideal.Laws
import Idealize.ShloMosaic.Lib.ValueIdx

noncomputable section

open scoped BigOperators

namespace Cert.Gating

open Idealize.ShloMosaic Idealize.ShloMosaic.ValueIdx

/-- −∞, as the f32 word both programs start a row's maximum from. -/
abbrev negInf : EReal := Ideal.ofBits .f32 0xFF800000#32

/-- The maximum of a row of 64 numbers, folded from −∞. -/
def rowMax (L : Fin 64 → EReal) : EReal := (Finset.univ : Finset (Fin 64)).fold max negInf L

/-- Taking the maximum with −∞ once more changes nothing: the fold already starts there. -/
theorem max_negInf_rowMax (L : Fin 64 → EReal) : max negInf (rowMax L) = rowMax L := by
  apply max_eq_right
  unfold rowMax
  exact (Finset.le_fold_max (s := Finset.univ) (f := L) (b := negInf) (c := negInf)).2 (Or.inl le_rfl)

/-- The stable softmax of one row of 64 logits, at expert e. -/
def soft (L : Fin 64 → EReal) (e : Fin 64) : EReal :=
  Ideal.div (Ideal.exp (L e - rowMax L)) (∑ e' : Fin 64, Ideal.exp (L e' - rowMax L))

/-- The logit of token r for expert e: the inner product of x's row r with W's row e, plus the bias. -/
def logit (X : (⟨2, ![16384, 4096]⟩ : Shape).Idx → EReal) (W : (⟨2, ![64, 4096]⟩ : Shape).Idx → EReal)
    (B : (⟨1, ![64]⟩ : Shape).Idx → EReal) (r : Fin 16384) (e : Fin 64) : EReal :=
  (∑ k : Fin 4096, X (ix2 r k) * W (ix2 e k)) + B (ix1 e)

/-- The gate of token r for expert e. -/
def gate (X : (⟨2, ![16384, 4096]⟩ : Shape).Idx → EReal) (W : (⟨2, ![64, 4096]⟩ : Shape).Idx → EReal)
    (B : (⟨1, ![64]⟩ : Shape).Idx → EReal) (r : Fin 16384) (e : Fin 64) : EReal :=
  soft (fun e' => logit X W B r e') e

/-- The result array, tokens by experts. -/
def gateArr (X : (⟨2, ![16384, 4096]⟩ : Shape).Idx → EReal) (W : (⟨2, ![64, 4096]⟩ : Shape).Idx → EReal)
    (B : (⟨1, ![64]⟩ : Shape).Idx → EReal) : (⟨2, ![16384, 64]⟩ : Shape).Idx → EReal :=
  fun i => gate X W B (i 0) (i 1)

/-- The same numbers laid out experts by tokens, as the kernel's region writes them before the final transpose. -/
def gateArrT (X : (⟨2, ![16384, 4096]⟩ : Shape).Idx → EReal) (W : (⟨2, ![64, 4096]⟩ : Shape).Idx → EReal)
    (B : (⟨1, ![64]⟩ : Shape).Idx → EReal) : (⟨2, ![64, 16384]⟩ : Shape).Idx → EReal :=
  fun i => gate X W B (i 1) (i 0)

theorem gateArr_ix2 (X : (⟨2, ![16384, 4096]⟩ : Shape).Idx → EReal) (W : (⟨2, ![64, 4096]⟩ : Shape).Idx → EReal)
    (B : (⟨1, ![64]⟩ : Shape).Idx → EReal) (r : Fin 16384) (e : Fin 64) : gateArr X W B (ix2 r e) = gate X W B r e := rfl

theorem gateArrT_ix2 (X : (⟨2, ![16384, 4096]⟩ : Shape).Idx → EReal) (W : (⟨2, ![64, 4096]⟩ : Shape).Idx → EReal)
    (B : (⟨1, ![64]⟩ : Shape).Idx → EReal) (e : Fin 64) (r : Fin 16384) : gateArrT X W B (ix2 e r) = gate X W B r e := rfl

/-- Two rows of logits that agree entry by entry have the same softmax. -/
theorem soft_congr {L L' : Fin 64 → EReal} (h : ∀ e, L e = L' e) (e : Fin 64) : soft L e = soft L' e := by
  rw [show L = L' from funext h]

end Cert.Gating

end
-- ==== Proof.RefSoftmax.lean ====
/-
  The reference, read index by index: jnp's  softmax (x @ W.T + b)  is the row softmax of the logits.

  The host program transposes W, contracts x with it over the 4096 features, adds the bias broadcast down the rows,
  takes each row's maximum (a reduce from −∞, and one more maximum with −∞, which changes nothing), subtracts it,
  exponentiates, sums each row from 0 and divides.  Read at token r and expert e this is the gate of the
  specification: the transposed W at (k, e) is W at (e, k), so the contraction is the inner product of x's row r
  with W's row e; the reduce over the 64 experts is the fold of max over them; the sum from 0 is the plain sum.
-/
import proofs.«103294_g84026740178975_cont_sun_m_1402_37_alg».proof.Proof.Gen.ReferenceIdeal.Read
import proofs.«103294_g84026740178975_cont_sun_m_1402_37_alg».proof.Proof.Softmax

noncomputable section

open scoped BigOperators

namespace Cert.ReferenceIdeal.RefValue

open Cert.ReferenceIdeal Cert.ReferenceIdeal.Gen Cert.ReferenceIdeal.Read Idealize.ShloMosaic Idealize.ShloMosaic.ValueIdx Cert.Gating

variable (x0 : (⟨S16384x4096, .f32⟩ : BufTy).Contents (Elt Ideal)) (x1 : (⟨S64x4096, .f32⟩ : BufTy).Contents (Elt Ideal))
  (x2 : (⟨S64, .f32⟩ : BufTy).Contents (Elt Ideal))

/-- The logits: the contraction over the features plus the bias. -/
theorem logits_apply (r : Fin 16384) (e : Fin 64) :
    val_main_v4 (F := Ideal) x0 x1 x2 (ix2 r e) = logit x0 x1 x2 r e := by
  rw [val_main_v4_apply, val_main_v1_apply, val_main_v3_apply, val_main_v2_apply]
  have hl : ∀ k : Fin 4096, lidx_main_v1 (ix2 r e) k = ix2 r k := fun k =>
    funext fun a => Fin.ext (by match a with | ⟨0, _⟩ => rfl | ⟨1, _⟩ => rfl)
  have hr : ∀ k : Fin 4096, idx_main_v0 (ridx_main_v1 (ix2 r e) k) = ix2 e k := fun k =>
    funext fun a => Fin.ext (by match a with | ⟨0, _⟩ => rfl | ⟨1, _⟩ => rfl)
  have hb : idx_main_v2 (idx_main_v3 (ix2 r e)) = ix1 e :=
    funext fun a => Fin.ext (by match a with | ⟨0, _⟩ => rfl)
  simp only [val_main_v0_apply, hl, hr, hb]
  rfl

/-- The reduce over the experts lifts a token index to (token, expert). -/
theorem lift_tok (h : S16384x64.Reduces [1] S16384) (r : Fin 16384) (e : Fin 64) : h.lift (ix1 r) e = ix2 r e :=
  funext fun a => Fin.ext (by match a with | ⟨0, _⟩ => rfl | ⟨1, _⟩ => rfl)

/-- A row's maximum: the reduce from −∞, and the further maximum with −∞. -/
theorem rowmax_apply (r : Fin 16384) :
    val_main_v7 (F := Ideal) x0 x1 x2 (ix1 r) = rowMax (fun e => logit x0 x1 x2 r e) := by
  rw [val_main_v7_apply, val_main_v6_apply]
  have h5 : val_main_v5 (F := Ideal) x0 x1 x2 (ix1 r) = rowMax (fun e => logit x0 x1 x2 r e) := by
    unfold val_main_v5
    rw [Host.reduce_eq_fold_single FloatOps.maximumf _ _ reducesTo_S16384x64_S16384_d1 (by decide) h_S_ (ix1 r)]
    unfold rowMax
    rw [show (val_main_v4 (F := Ideal) x0 x1 x2 ∘ (by decide : S16384x64.Reduces [1] S16384).lift (ix1 r))
        = (fun e => logit x0 x1 x2 r e) from funext fun e => by
          exact (congrArg (val_main_v4 (F := Ideal) x0 x1 x2) (lift_tok _ r e)).trans (logits_apply x0 x1 x2 r e)]
    rfl
  rw [h5]
  exact max_negInf_rowMax _

/-- The exponentials of the shifted logits. -/
theorem exps_apply (r : Fin 16384) (e : Fin 64) :
    val_main_v11 (F := Ideal) x0 x1 x2 (ix2 r e)
      = Ideal.exp (logit x0 x1 x2 r e - rowMax (fun e' => logit x0 x1 x2 r e')) := by
  rw [val_main_v11_apply, val_main_v10_apply, val_main_v9_apply, val_main_v8_apply, logits_apply]
  have hi : idx_main_v8 (idx_main_v9 (ix2 r e)) = ix1 r :=
    funext fun a => Fin.ext (by match a with | ⟨0, _⟩ => rfl)
  rw [hi, rowmax_apply]
  rfl

/-- A row's sum of exponentials, from 0. -/
theorem denom_apply (r : Fin 16384) :
    val_main_v12 (F := Ideal) x0 x1 x2 (ix1 r)
      = ∑ e' : Fin 64, Ideal.exp (logit x0 x1 x2 r e' - rowMax (fun e'' => logit x0 x1 x2 r e'')) := by
  rw [val_main_v12_apply, val_main_cst_1_apply]
  have hi : ∀ k : Fin 64, idx_main_v12 (ix1 r) k = ix2 r k := fun k =>
    funext fun a => Fin.ext (by match a with | ⟨0, _⟩ => rfl | ⟨1, _⟩ => rfl)
  simp only [hi, exps_apply]
  show Ideal.ofBits .f32 0x00000000#32 + _ = _
  rw [Ideal.ofBits_zero_f32, zero_add]

/-- The reference's result is the gate array of the specification. -/
theorem result_eq : val_main_v15 (F := Ideal) x0 x1 x2 = gateArr x0 x1 x2 := by
  funext i
  obtain ⟨r, e, rfl⟩ : ∃ (r : Fin 16384) (e : Fin 64), i = ix2 r e := ⟨i 0, i 1, eq_ix2 i⟩
  rw [val_main_v15_apply, val_main_v14_apply, val_main_v13_apply, exps_apply]
  have hi : idx_main_v13 (idx_main_v14 (ix2 r e)) = ix1 r :=
    funext fun a => Fin.ext (by match a with | ⟨0, _⟩ => rfl)
  rw [hi, denom_apply]
  rfl

end Cert.ReferenceIdeal.RefValue

end
-- ==== Proof.SlabValue.lean ====
/-
  One slab of the kernel's body, read index by index.

  The body handles its 1024 token rows in four slabs of 256.  For a slab xs (256 × 4096), the weights w (64 × 4096,
  the scratch copy) and the bias row b (1 × 64) it forms the logits  xs · wᵀ + b  on the matrix unit (into a zero
  accumulator), takes each row's maximum over the 64 lanes, subtracts it, exponentiates, divides by the row's lane
  sum, and transposes the 256 × 64 tile to 64 × 256.  All four stores of the body write this same function of
  (w, b, slab).  Read at expert e and slab row q it is the softmax, at e, of the row of logits
  Σ_k xs[q,k] · w[e',k] + b[0,e']  — the narrowing to bf16 is the identity on the extended reals, a matrix product
  into zero is the plain sum over the contraction index, a lane maximum is the fold of max and a lane sum the sum
  over the lanes, and the two keepdims broadcasts read a row's value at every lane.
-/
import proofs.«103294_g84026740178975_cont_sun_m_1402_37_alg».proof.Proof.Gen.KernelIdeal.Skeleton
import proofs.«103294_g84026740178975_cont_sun_m_1402_37_alg».proof.Proof.Softmax
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.SlabValue

open Cert.KernelIdeal Cert.KernelIdeal.Gen Idealize.ShloMosaic Idealize.ShloMosaic.ValueIdx Cert.Gating

/-- The contraction of a slab with the weights: x's feature axis against W's feature axis. -/
abbrev DD : DotDims S256x4096 S64x4096 S256x64 := dot_S256x4096_S64x4096_S256x64_1_1_0_0_n_n

/-- The slab's logits, as the body computes them. -/
def slabLogits (w : FVec Ideal S64x4096 .bf16) (b : FVec Ideal S1x64 .f32) (xs : FVec Ideal S256x4096 .f32) :
    FVec Ideal S256x64 .f32 :=
  addf (matmul dot_S256x4096_S64x4096_S256x64_1_1_0_0_n_n none (truncf .bf16 xs bitsLt_bf16_f32) w (constant S256x64 .f32 0x00000000#32))
    (broadcastTo S256x64 b broadcasts_S1x64_S256x64)

/-- Each row's maximum over the lanes, kept as a column and broadcast back over the lanes. -/
def keepMax (l : FVec Ideal S256x64 .f32) : FVec Ideal S256x64 .f32 :=
  broadcastTo S256x64 (shapeCast S256x1 (multiReduction .maximumf [1] S256 l 0xFF800000#32 reduces_S256x64_S256 (.inl rfl) rfl)
    shapeCasts_S256_S256x1) broadcasts_S256x1_S256x64

/-- Each row's sum over the lanes, kept as a column and broadcast back over the lanes. -/
def keepSum (p : FVec Ideal S256x64 .f32) : FVec Ideal S256x64 .f32 :=
  broadcastTo S256x64 (shapeCast S256x1 (multiReduction .add [1] S256 p 0x00000000#32 reduces_S256x64_S256 (.inl rfl) rfl)
    shapeCasts_S256_S256x1) broadcasts_S256x1_S256x64

/-- The slab's gates from its logits, transposed to experts by rows. -/
def slabGate (l : FVec Ideal S256x64 .f32) : FVec Ideal S64x256 .f32 :=
  transpose S64x256 [1, 0] (divf (exp (subf l (keepMax l))) (keepSum (exp (subf l (keepMax l))))) transposes_S256x64_p1_0_S64x256

/-- The four stores' payloads are this one function of the weights, the bias row and the slab. -/
theorem pay1_eq (w : FVec Ideal S64x4096 .bf16) (b : FVec Ideal S1x64 .f32) (xs : FVec Ideal S256x4096 .f32) :
    k0_pay1 (F := Ideal) w b xs = slabGate (slabLogits w b xs) := rfl
theorem pay2_eq (w : FVec Ideal S64x4096 .bf16) (b : FVec Ideal S1x64 .f32) (xs : FVec Ideal S256x4096 .f32) :
    k0_pay2 (F := Ideal) w b xs = slabGate (slabLogits w b xs) := rfl
theorem pay5_eq (w : FVec Ideal S64x4096 .bf16) (b : FVec Ideal S1x64 .f32) (xs : FVec Ideal S256x4096 .f32) :
    k0_pay5 (F := Ideal) w b xs = slabGate (slabLogits w (k0_pay4 (F := Ideal) b) xs) := rfl
theorem pay6_eq (w : FVec Ideal S64x4096 .bf16) (b : FVec Ideal S1x64 .f32) (xs : FVec Ideal S256x4096 .f32) :
    k0_pay6 (F := Ideal) w b xs = slabGate (slabLogits w (k0_pay4 (F := Ideal) b) xs) := rfl

/-- The body's shape cast of the bias row to its own shape, and of the narrowed weights to theirs, change nothing. -/
theorem pay4_eq (b : FVec Ideal S1x64 .f32) : k0_pay4 (F := Ideal) b = b := shapeCast_self b _
theorem pay3_eq (w : FVec Ideal S64x4096 .f32) : k0_pay3 (F := Ideal) w = w := shapeCast_self _ _

/-! ## The contraction's operand indices -/

theorem lhs_0 (i : S256x64.Idx) (c : DD.contr.Idx) : (DD.lhsIdx i c 0).val = (i 0).val := by
  unfold DotDims.lhsIdx
  rw [dif_neg (show ¬(0 : Fin S256x4096.rank) ∈ DD.lhsBatch by decide), dif_pos (show (0 : Fin S256x4096.rank) ∈ DD.lhsNonContracting by decide)]
  rfl
theorem lhs_1 (i : S256x64.Idx) (c : DD.contr.Idx) : (DD.lhsIdx i c 1).val = (c ⟨0, by decide⟩).val :=
  DD.lhsIdx_val_of_single rfl i c
theorem rhs_0 (i : S256x64.Idx) (c : DD.contr.Idx) : (DD.rhsIdx i c 0).val = (i 1).val := by
  unfold DotDims.rhsIdx
  rw [dif_neg (show ¬(0 : Fin S64x4096.rank) ∈ DD.rhsBatch by decide), dif_pos (show (0 : Fin S64x4096.rank) ∈ DD.rhsNonContracting by decide)]
  rfl
theorem rhs_1 (i : S256x64.Idx) (c : DD.contr.Idx) : (DD.rhsIdx i c 1).val = (c ⟨0, by decide⟩).val :=
  DD.rhsIdx_val_of_single rfl i c

/-- The matrix product into zero, at (q, e): the inner product of the slab's row q with the weights' row e. -/
theorem matmul_slab_apply (w : FVec Ideal S64x4096 .bf16) (xs : FVec Ideal S256x4096 .f32) (q : Fin 256) (e : Fin 64) :
    matmul dot_S256x4096_S64x4096_S256x64_1_1_0_0_n_n none (truncf .bf16 xs bitsLt_bf16_f32) w (constant S256x64 .f32 0x00000000#32) (ix2 q e)
      = ∑ k : Fin 4096, xs (ix2 q k) * w (ix2 e k) := by
  simp only [matmul]
  rw [Ideal.matmul_constant_zero_apply, ← Equiv.sum_comp (contrEquiv1 DD 4096 rfl rfl).symm]
  refine Finset.sum_congr rfl fun k _ => ?_
  have hk := contrEquiv1_symm_val DD 4096 rfl rfl k
  have el : DD.lhsIdx (ix2 q e) ((contrEquiv1 DD 4096 rfl rfl).symm k) = ix2 q k := funext fun a => Fin.ext (by
    match a with
    | ⟨0, _⟩ => exact lhs_0 _ _
    | ⟨1, _⟩ => exact (lhs_1 _ _).trans hk)
  have er : DD.rhsIdx (ix2 q e) ((contrEquiv1 DD 4096 rfl rfl).symm k) = ix2 e k := funext fun a => Fin.ext (by
    match a with
    | ⟨0, _⟩ => exact rhs_0 _ _
    | ⟨1, _⟩ => exact (rhs_1 _ _).trans hk)
  rw [el, er]
  rfl

/-- The slab's logits at (q, e). -/
theorem slabLogits_apply (w : FVec Ideal S64x4096 .bf16) (b : FVec Ideal S1x64 .f32) (xs : FVec Ideal S256x4096 .f32)
    (q : Fin 256) (e : Fin 64) :
    slabLogits w b xs (ix2 q e) = (∑ k : Fin 4096, xs (ix2 q k) * w (ix2 e k)) + b (ix2 (0 : Fin 1) e) := by
  have hb : broadcastTo S256x64 b broadcasts_S1x64_S256x64 (ix2 q e) = b (ix2 (0 : Fin 1) e) :=
    broadcastTo_1b_ab_apply b broadcasts_S1x64_S256x64 q e
  unfold slabLogits
  show _ + _ = _
  rw [hb, matmul_slab_apply]

/-- A per-row value kept as a column and broadcast over the lanes reads the row's value at every lane. -/
theorem keepdims_apply (v : FVec Ideal S256 .f32) (q : Fin 256) (e : Fin 64) :
    broadcastTo S256x64 (shapeCast S256x1 v shapeCasts_S256_S256x1) broadcasts_S256x1_S256x64 (ix2 q e) = v (ix1 q) := by
  refine (broadcastTo_apply _ broadcasts_S256x1_S256x64 (ix2 q e) (ix2 q (0 : Fin 1)) fun a => ?_).trans ?_
  · match a with
    | ⟨0, _⟩ => show q.val = if (256 : Nat) = 1 then 0 else q.val; rw [if_neg (by decide)]
    | ⟨1, _⟩ => show 0 = if (1 : Nat) = 1 then 0 else e.val; rw [if_pos rfl]
  · exact shapeCast_apply v shapeCasts_S256_S256x1 (ix2 q (0 : Fin 1)) (ix1 q) (by
      rw [Shape.rowMajor_val_one, Shape.rowMajor_val_two]; show q.val = q.val * 1 + 0; omega)

/-- Reducing the lane axis lifts a row index to (row, lane). -/
theorem lift_row (q : Fin 256) (e : Fin 64) : reduces_S256x64_S256.lift (ix1 q) e = ix2 q e :=
  funext fun a => Fin.ext (by match a with | ⟨0, _⟩ => rfl | ⟨1, _⟩ => rfl)

/-- The kept row maximum at (q, e) is the fold of max over row q. -/
theorem keepMax_apply (l : FVec Ideal S256x64 .f32) (q : Fin 256) (e : Fin 64) :
    keepMax l (ix2 q e) = rowMax (fun e' => l (ix2 q e')) := by
  unfold keepMax
  refine (keepdims_apply _ q e).trans ?_
  refine (Ideal.multiReduction_maximumf_single l 0xFF800000#32 reduces_S256x64_S256 (.inl rfl) rfl (ix1 q)).trans ?_
  unfold rowMax
  rw [show (l ∘ reduces_S256x64_S256.lift (ix1 q)) = (fun e' : Fin 64 => l (ix2 q e')) from
    funext fun e' => congrArg l (lift_row q e')]
  rfl

/-- The kept row sum at (q, e) is the sum over row q. -/
theorem keepSum_apply (p : FVec Ideal S256x64 .f32) (q : Fin 256) (e : Fin 64) :
    keepSum p (ix2 q e) = ∑ e' : Fin 64, p (ix2 q e') := by
  unfold keepSum
  refine (keepdims_apply _ q e).trans ?_
  refine (Ideal.multiReduction_add_single p 0x00000000#32 reduces_S256x64_S256 (.inl rfl) rfl (ix1 q)).trans ?_
  exact Finset.sum_congr rfl fun e' _ => congrArg p (lift_row q e')

/-- The slab's gates at (e, q): the softmax of row q of the logits, at e. -/
theorem slabGate_apply (l : FVec Ideal S256x64 .f32) (e : Fin 64) (q : Fin 256) :
    slabGate l (ix2 e q) = soft (fun e' => l (ix2 q e')) e := by
  unfold slabGate
  refine (transpose_ix2_apply _ transposes_S256x64_p1_0_S64x256 e q).trans ?_
  show Ideal.div (Ideal.exp (l (ix2 q e) - keepMax l (ix2 q e))) (keepSum (exp (subf l (keepMax l))) (ix2 q e)) = _
  rw [keepMax_apply, keepSum_apply]
  unfold soft
  refine congrArg (Ideal.div _) (Finset.sum_congr rfl fun e' _ => ?_)
  show Ideal.exp (l (ix2 q e') - keepMax l (ix2 q e')) = _
  rw [keepMax_apply]

/-- The whole slab function at (e, q), over the weights, the bias row and the slab. -/
theorem slab_apply (w : FVec Ideal S64x4096 .bf16) (b : FVec Ideal S1x64 .f32) (xs : FVec Ideal S256x4096 .f32)
    (e : Fin 64) (q : Fin 256) :
    slabGate (slabLogits w b xs) (ix2 e q)
      = soft (fun e' => (∑ k : Fin 4096, xs (ix2 q k) * w (ix2 e' k)) + b (ix2 (0 : Fin 1) e')) e := by
  rw [slabGate_apply]
  exact soft_congr (fun e' => slabLogits_apply w b xs q e') e

end Cert.KernelIdeal.SlabValue

end
-- ==== Proof.BlockValue.lean ====
/-
  What one grid point leaves behind, as values.

  At a grid point the body sees the point's 1024 token rows x (1024 × 4096), the weights and the bias row, and the
  scratch copy of the weights.  Its four stores write the four 64 × 256 tiles of the 64 × 1024 output block; tile h
  holds the gates of token rows 256h … 256h + 255, experts down the rows.  So the block the point leaves is ONE
  function of (weights, bias row, x): at (e, q) the softmax, at expert e, of the logits of the point's token row q.
  Each store's payload is the tile of that function its rectangle names, which is all that is needed to read the
  list of stores back as the function.

  At the first grid point the body first copies the weights into the scratch (narrowed to bf16: the identity here)
  and reads them back, so it computes with the weights themselves and leaves them in the scratch; at a later point
  it computes with whatever the scratch holds and leaves the scratch alone.
-/
import proofs.«103294_g84026740178975_cont_sun_m_1402_37_alg».proof.Proof.Gen.KernelIdeal.Frame
import proofs.«103294_g84026740178975_cont_sun_m_1402_37_alg».proof.Proof.SlabValue
import Idealize.ShloMosaic.Lib.Pipeline.Value
import Idealize.ShloMosaic.Lib.Tactic

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.Gating Cert.KernelIdeal.SlabValue

theorem hz : (![0, 0] : Fin 2 → Nat) = fun _ => 0 := funext fun a => by fin_cases a <;> rfl

/-- The output block of one grid point: at (e, q) the softmax, at expert e, of the logits of the point's token row q. -/
def blockGate (w : FVec Ideal S64x4096 .bf16) (b : FVec Ideal S1x64 .f32) (x : FVec Ideal S1024x4096 .f32) :
    FVec Ideal S64x1024 .f32 :=
  fun y => soft (fun e' => (∑ k : Fin 4096, x (ix2 (y 1) k) * w (ix2 e' k)) + b (ix2 (0 : Fin 1) e')) (y 0)

/-- The block function at an index whose coordinates are known. -/
theorem blockGate_apply (w : FVec Ideal S64x4096 .bf16) (b : FVec Ideal S1x64 .f32) (x : FVec Ideal S1024x4096 .f32)
    (y : S64x1024.Idx) (e : Fin 64) (r : Fin 1024) (he : (y 0).val = e.val) (hr : (y 1).val = r.val) :
    blockGate w b x y = soft (fun e' => (∑ k : Fin 4096, x (ix2 r k) * w (ix2 e' k)) + b (ix2 (0 : Fin 1) e')) e := by
  have hy : y = ix2 e r := funext fun a => Fin.ext (by
    match a with
    | ⟨0, _⟩ => exact he
    | ⟨1, _⟩ => exact hr)
  subst hy
  rfl

/-- The slab of token rows o … o + 255 of the point's rows gives the tile at lanes o … o + 255 of the block. -/
theorem slab_piece (w : FVec Ideal S64x4096 .bf16) (b : FVec Ideal S1x64 .f32) (x0 : Vec Ideal S1024x4096 .f32) (o : Nat)
    (inbX : ∀ a, (![o, 0] : Fin 2 → Nat) a + S256x4096.size a ≤ S1024x4096.size a)
    (inbO : ∀ a, (![0, o] : Fin 2 → Nat) a + S64x256.size a ≤ S64x1024.size a) (x' : S64x256.Idx) :
    slabGate (slabLogits w b (View.ld (Val := Elt Ideal) (e' := .f32) x0 (Rect.unit (s := S1024x4096) ![o, 0] S256x4096.size inbX) : FVec Ideal S256x4096 .f32)) x'
      = blockGate w b x0 ((Rect.unit (s := S64x1024) ![0, o] S64x256.size inbO).emb x') := by
  obtain ⟨e, q, rfl⟩ : ∃ (e : Fin 64) (q : Fin 256), x' = ix2 e q := ⟨x' 0, x' 1, eq_ix2 x'⟩
  have ho : o + 256 ≤ 1024 := inbO 1
  have hq : o + q.val < 1024 := by have := q.isLt; omega
  rw [slab_apply, blockGate_apply w b x0 _ e ⟨o + q.val, hq⟩ (by show 0 + 1 * e.val = e.val; omega)
    (by show o + 1 * q.val = o + q.val; omega)]
  refine soft_congr (fun e' => ?_) e
  refine congrArg (· + b (ix2 (0 : Fin 1) e')) (Finset.sum_congr rfl fun k _ => ?_)
  refine congrArg (· * w (ix2 e' k)) ?_
  exact congrArg x0 (funext fun a => Fin.ext (by
    match a with
    | ⟨0, _⟩ => show o + 1 * q.val = o + q.val; omega
    | ⟨1, _⟩ => show 0 + 1 * k.val = k.val; omega))

/-- THE FIRST POINT's block: computed with the weights themselves (copied to the scratch and read back). -/
theorem out_first (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S64x1024 .f32) (harg4 : arg4.IsWhole) (arg5 : Memref sig .tc .vmem S64x4096 .bf16) (harg5 : arg5.IsWhole) (hc0 : cond0_0 i)
    (x0 : Vec Ideal S1024x4096 .f32) (x1 : Vec Ideal S64x4096 .f32) (x2 : Vec Ideal S1x64 .f32) :
    out0_A_3 (F := Ideal) c i arg1 harg1 arg2 harg2 arg3 harg3 arg4 harg4 arg5 harg5 hc0 x0 x1 x2 = blockGate x1 x2 x0 := by
  unfold out0_A_3
  rw [View.read_writes_eq_canon (Val := Elt Ideal) _ _ _ (cover0_A_3 (F := Ideal) c i arg1 harg1 arg2 harg2 arg3 harg3 arg4 harg4 arg5 harg5 hc0 x0 x1 x2)]
  funext y
  refine View.canon_apply_of_pieces (blockGate x1 x2 x0) _ ?_ y (cover0_A_3 (F := Ideal) c i arg1 harg1 arg2 harg2 arg3 harg3 arg4 harg4 arg5 harg5 hc0 x0 x1 x2 y)
  unfold kernelRun0_A
  dsimp only
  sl_unfold_words
  simp only [View.readAt_eq_ld, harg1.read_unread, harg2.read_unread, harg3.read_unread,
    View.readCov_unit_zero (S := S64x4096) _ hz, View.ld_unit_zero (S := S64x4096) hz, View.ld_unit_zero (S := S1x64) hz]
  intro p hp x'
  simp only [List.mem_cons, List.mem_singleton, List.not_mem_nil, or_false] at hp
  rcases hp with rfl | rfl | rfl | rfl
  · dsimp only
    rw [pay2_eq, pay3_eq, pay4_eq]
    exact slab_piece x1 x2 x0 768 _ _ x'
  · dsimp only
    rw [pay1_eq, pay3_eq, pay4_eq]
    exact slab_piece x1 x2 x0 512 _ _ x'
  · dsimp only
    rw [pay6_eq, pay3_eq, pay4_eq]
    exact slab_piece x1 x2 x0 256 _ _ x'
  · dsimp only
    rw [pay5_eq, pay3_eq, pay4_eq]
    exact slab_piece x1 x2 x0 0 _ _ x'

/-- THE FIRST POINT leaves the weights in the scratch. -/
theorem scratch_first (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S64x1024 .f32) (harg4 : arg4.IsWhole) (arg5 : Memref sig .tc .vmem S64x4096 .bf16) (harg5 : arg5.IsWhole) (hc0 : cond0_0 i)
    (x0 : Vec Ideal S1024x4096 .f32) (x1 : Vec Ideal S64x4096 .f32) (x2 : Vec Ideal S1x64 .f32) :
    sout0_A_0 (F := Ideal) c i arg1 harg1 arg2 harg2 arg3 harg3 arg4 harg4 arg5 harg5 hc0 x0 x1 x2 = x1 := by
  unfold sout0_A_0
  rw [View.read_writes_eq_canon (Val := Elt Ideal) _ _ _ (scover0_A_0 (F := Ideal) c i arg1 harg1 arg2 harg2 arg3 harg3 arg4 harg4 arg5 harg5 hc0 x0 x1 x2)]
  unfold kernelRun0_A
  dsimp only
  sl_unfold_words
  rw [View.canon_unit_zero hz]
  simp only [View.readAt_eq_ld, harg2.read_unread, View.ld_unit_zero (S := S64x4096) hz]
  exact pay3_eq x1

/-- A LATER POINT's block: computed with what the scratch holds. -/
theorem out_later (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S64x1024 .f32) (harg4 : arg4.IsWhole) (arg5 : Memref sig .tc .vmem S64x4096 .bf16) (harg5 : arg5.IsWhole) (hc0 : ¬cond0_0 i)
    (x0 : Vec Ideal S1024x4096 .f32) (x1 : Vec Ideal S64x4096 .f32) (x2 : Vec Ideal S1x64 .f32) (xs0 : Vec Ideal S64x4096 .bf16) :
    out0_B_3 (F := Ideal) c i arg1 harg1 arg2 harg2 arg3 harg3 arg4 harg4 arg5 harg5 hc0 x0 x1 x2 xs0 = blockGate xs0 x2 x0 := by
  unfold out0_B_3
  rw [View.read_writes_eq_canon (Val := Elt Ideal) _ _ _ (cover0_B_3 (F := Ideal) c i arg1 harg1 arg2 harg2 arg3 harg3 arg4 harg4 arg5 harg5 hc0 x0 x1 x2 xs0)]
  funext y
  refine View.canon_apply_of_pieces (blockGate xs0 x2 x0) _ ?_ y (cover0_B_3 (F := Ideal) c i arg1 harg1 arg2 harg2 arg3 harg3 arg4 harg4 arg5 harg5 hc0 x0 x1 x2 xs0 y)
  unfold kernelRun0_B
  dsimp only
  sl_unfold_words
  simp only [View.readAt_eq_ld, harg1.read_unread, harg3.read_unread, harg5.read_unread,
    View.ld_unit_zero (S := S64x4096) hz, View.ld_unit_zero (S := S1x64) hz]
  intro p hp x'
  simp only [List.mem_cons, List.mem_singleton, List.not_mem_nil, or_false] at hp
  rcases hp with rfl | rfl | rfl | rfl
  · dsimp only
    rw [pay2_eq, pay4_eq]
    exact slab_piece xs0 x2 x0 768 _ _ x'
  · dsimp only
    rw [pay1_eq, pay4_eq]
    exact slab_piece xs0 x2 x0 512 _ _ x'
  · dsimp only
    rw [pay6_eq, pay4_eq]
    exact slab_piece xs0 x2 x0 256 _ _ x'
  · dsimp only
    rw [pay5_eq, pay4_eq]
    exact slab_piece xs0 x2 x0 0 _ _ x'

end Cert.KernelIdeal.BlockValue

end
-- ==== Proof.ArrayValue.lean ====
/-
  From grid points to the result array.

  The grid has 16 points; point t sees token rows 1024 t … 1024 t + 1023 of x, the whole of W, the bias as a row, and
  writes back lanes 1024 t … 1024 t + 1023 of the 64 × 16384 array the region produces.  The scratch holds W from the
  first point on (the first point copies it there, the later points leave it alone), so EVERY point computes with W
  itself: by induction on the point.  Hence the block point t writes back is block t of one function of the whole
  arguments — experts down the rows, tokens along the lanes, the gate of token 1024 t + q in lane q of the block — and
  the sixteen blocks cover the array.  The host's final transpose then puts tokens down the rows: the result array of
  the specification.
-/
import proofs.«103294_g84026740178975_cont_sun_m_1402_37_alg».proof.Proof.Gen.KernelIdeal.Frame
import proofs.«103294_g84026740178975_cont_sun_m_1402_37_alg».proof.Proof.BlockValue
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.Gating Cert.KernelIdeal.SlabValue Cert.KernelIdeal.BlockValue
open Idealize.ShloMosaic.Pipeline (Dat)

variable (m : (ℓ : Loc nD τ sig) → Buf (Elt Ideal) ℓ) (ρ : Dev nD → PrngReg)

/-- The four index maps over the grid: x's block moves down the rows with the point, W and the bias row stay, the
    output's block moves along the lanes with the point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-! ## The windows' blocks, read off the arrays -/

/-- W's window is the whole array at every point. -/
theorem wblk_eq (c : Dev nD) (t : Fin cfg0.N) : (iblk m c 1 t : Vec Ideal S64x4096 .f32) = V m c main_arg1 := by
  obtain ⟨-, -, e0, e1, -⟩ := idx_facts t
  funext j
  unfold iblk
  rw [View.read_apply]
  show V m c main_arg1 _ = V m c main_arg1 j
  refine congrArg (V m c main_arg1) (funext fun a => Fin.ext ?_)
  match a with
  | ⟨0, _⟩ => show win0_1.index t 0 * 64 + 1 * (j 0).val = (j 0).val; rw [e0]; omega
  | ⟨1, _⟩ => show win0_1.index t 1 * 4096 + 1 * (j 1).val = (j 1).val; rw [e1]; omega

/-- The bias row's window is the whole row at every point. -/
theorem bblk_eq (c : Dev nD) (t : Fin cfg0.N) : (iblk m c 2 t : Vec Ideal S1x64 .f32) = V m c main_v0 := by
  obtain ⟨-, -, -, -, e0, e1, -⟩ := idx_facts t
  funext j
  unfold iblk
  rw [View.read_apply]
  show V m c main_v0 _ = V m c main_v0 j
  refine congrArg (V m c main_v0) (funext fun a => Fin.ext ?_)
  match a with
  | ⟨0, _⟩ => show win0_2.index t 0 * 1 + 1 * (j 0).val = (j 0).val; rw [e0]; omega
  | ⟨1, _⟩ => show win0_2.index t 1 * 64 + 1 * (j 1).val = (j 1).val; rw [e1]; omega

/-- x's block at point t, at row q: row 1024 t + q of x. -/
theorem xblk_apply (c : Dev nD) (t : Fin cfg0.N) (q : Fin 1024) (k : Fin 4096) (hq : 1024 * t.val + q.val < 16384) :
    (iblk m c 0 t : Vec Ideal S1024x4096 .f32) (ix2 q k) = V m c main_arg0 (ix2 ⟨1024 * t.val + q.val, hq⟩ k) := by
  obtain ⟨e0, e1, -⟩ := idx_facts t
  unfold iblk
  rw [View.read_apply]
  show V m c main_arg0 _ = _
  refine congrArg (V m c main_arg0) (funext fun a => Fin.ext ?_)
  match a with
  | ⟨0, _⟩ => show win0_0.index t 0 * 1024 + 1 * q.val = 1024 * t.val + q.val; rw [e0]; omega
  | ⟨1, _⟩ => show win0_0.index t 1 * 4096 + 1 * k.val = k.val; rw [e1]; omega

/-- The bias row the region finds is the bias vector reshaped by the host. -/
theorem bias_eq (c : Dev nD) :
    (V m c main_v0 : S1x64.Idx → EReal) = shapeCast S1x64 (m ((c : Thread nD τ).loc main_arg2)) shapeCasts_S64_S1x64 := by
  show StableHlo.after hostOps0 (fun b => m (c, b)) (Proc.devRef .tc main_v0) = _
  after_results
  rfl

theorem bias_apply (c : Dev nD) (e : Fin 64) :
    V m c main_v0 (ix2 (0 : Fin 1) e) = (m ((c : Thread nD τ).loc main_arg2)) (ix1 e) := by
  rw [bias_eq]
  exact shapeCast_a_1a_apply _ shapeCasts_S64_S1x64 0 e

/-! ## Every point computes with W itself -/

/-- After point n: the output's staging buffer holds the point's block computed with W, and the scratch holds W. -/
theorem outs_eq (c : Dev nD) : ∀ (n : ℕ) (h : n < cfg0.N),
    (outsAt0 m c n h).1 = blockGate (V m c main_arg1) (V m c main_v0) (iblk m c 0 ⟨n, h⟩)
      ∧ (outsAt0 m c n h).2 = V m c main_arg1
  | 0, h => by
    rw [outsAt0_A m c ⟨0, h⟩ rfl]
    dsimp only
    refine ⟨?_, ?_⟩
    · refine (out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)).trans ?_
      rw [wblk_eq, bblk_eq]
    · exact (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)).trans (wblk_eq m c ⟨0, h⟩)
  | n + 1, h => by
    have hN : cfg0.N = 16 := N_0
    have hB : ¬(⟨n + 1, h⟩ : Fin cfg0.N).val % 16 = 0 := by dsimp only; omega
    have ih := (outs_eq c n (Nat.lt_of_succ_lt h)).2
    rw [outsAt0_B m c ⟨n + 1, h⟩ hB]
    dsimp only
    refine ⟨?_, ?_⟩
    · refine (out_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hc => hB ((hcond0_0 ⟨n + 1, h⟩).mp hc)) (iblk m c 0 ⟨n + 1, h⟩) (iblk m c 1 ⟨n + 1, h⟩) (iblk m c 2 ⟨n + 1, h⟩) (outsAt0 m c n (Nat.lt_of_succ_lt h)).2).trans ?_
      rw [ih, bblk_eq]
    · exact ih

/-! ## The array the region produces -/

/-- The region's result: the gates, experts down the rows and tokens along the lanes. -/
abbrev resultT (c : Dev nD) : Buf (Elt Ideal) ((c : Thread nD τ).loc main_v1) :=
  gateArrT (m ((c : Thread nD τ).loc main_arg0)) (m ((c : Thread nD τ).loc main_arg1)) (m ((c : Thread nD τ).loc main_arg2))

/-- WHAT POINT t WRITES BACK is block t of that array. -/
theorem flushed_eq (c : Dev nD) (t : Fin cfg0.N) (hf : (cfg0.win 3).flush t = true) :
    (dats m 0 c).flushed 3 t = ((cfg0.win 3).blk t).view.read (Elt Ideal) (resultT m c) := by
  obtain ⟨-, -, -, -, -, -, e0, e1⟩ := idx_facts t
  have hN : cfg0.N = 16 := N_0
  have ht : t.val < 16 := by have := t.isLt; omega
  show (cfg0.win 3).cut (grid0.coords t) ((dats m 0 c).after 3 t) = _
  rw [after0_3, (outs_eq m c t.val t.isLt).1]
  funext j
  obtain ⟨e, q, rfl⟩ : ∃ (e : Fin 64) (q : Fin 1024), j = ix2 e q := ⟨j 0, j 1, eq_ix2 j⟩
  have hr : 1024 * t.val + q.val < 16384 := by have := q.isLt; omega
  have hemb : ((cfg0.win 3).blk t).view.emb (ix2 e q) = ix2 e (⟨1024 * t.val + q.val, hr⟩ : Fin 16384) := funext fun a => Fin.ext (by
    match a with
    | ⟨0, _⟩ => show win0_3.index t 0 * 64 + 1 * e.val = e.val; rw [e0]; omega
    | ⟨1, _⟩ => show win0_3.index t 1 * 1024 + 1 * q.val = 1024 * t.val + q.val; rw [e1]; omega)
  rw [View.read_apply, hemb]
  show blockGate (V m c main_arg1) (V m c main_v0) (iblk m c 0 t) (ix2 e q)
    = gate (m ((c : Thread nD τ).loc main_arg0)) (m ((c : Thread nD τ).loc main_arg1)) (m ((c : Thread nD τ).loc main_arg2)) ⟨1024 * t.val + q.val, hr⟩ e
  rw [blockGate_apply _ _ _ (ix2 e q) e q rfl rfl]
  unfold gate
  refine soft_congr (fun e' => ?_) e
  unfold logit
  rw [bias_apply, V_main_arg1 m c]
  refine congrArg (· + _) (Finset.sum_congr rfl fun k _ => ?_)
  rw [xblk_apply m c t q k hr, V_main_arg0 m c]

/-- An index of the array is in point t's block iff each coordinate is in the block's range on its axis. -/
theorem mem_blk (t : Fin cfg0.N) (i : S64x16384.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v1).slice (win0_3.rect t)).set ↔ _
  rw [View.set_slice_whole, Rect.mem_set_unit]
  exact Iff.rfl

/-- The sixteen blocks cover the array: lane r lies in the block of point r / 1024. -/
theorem cover (i : S64x16384.Idx) : ∃ t : Fin cfg0.N, (cfg0.win 3).flush t = true ∧ i ∈ ((cfg0.win 3).blk t).view.set := by
  have h0 : (i 0).val < 64 := (i 0).isLt
  have h1 : (i 1).val < 16384 := (i 1).isLt
  have hN : cfg0.N = 16 := N_0
  have hlt : (i 1).val / 1024 < cfg0.N := by rw [hN]; omega
  obtain ⟨-, -, -, -, -, -, e0, e1⟩ := idx_facts ⟨(i 1).val / 1024, hlt⟩
  refine ⟨⟨(i 1).val / 1024, hlt⟩, flush0_3 _, ?_⟩
  rw [mem_blk]
  intro a
  match a with
  | ⟨0, _⟩ => show win0_3.index ⟨(i 1).val / 1024, hlt⟩ 0 * 64 ≤ (i 0).val ∧ (i 0).val < win0_3.index ⟨(i 1).val / 1024, hlt⟩ 0 * 64 + 64
              rw [e0]; omega
  | ⟨1, _⟩ => show win0_3.index ⟨(i 1).val / 1024, hlt⟩ 1 * 1024 ≤ (i 1).val ∧ (i 1).val < win0_3.index ⟨(i 1).val / 1024, hlt⟩ 1 * 1024 + 1024
              rw [e1]; dsimp only; omega

/-- So the array ends holding the gates, experts by tokens. -/
theorem final (c : Dev nD) : (dats m 0 c).arrAt 3 cfg0.N = resultT m c :=
  (dats m 0 c).arrAt_eq_of_cover 3 (resultT m c) (flushed_eq m c) cover

/-! ## The host's transpose -/

/-- After the region the host transposes the array: tokens down the rows. -/
theorem tail_eq (c : Dev nD) :
    Pipeline.afterTail₀ cfgs (dats m) 0 (V0 m) [hostOps1] c main_v2
      = gateArr (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [(Pipeline.withArrays_arr spec0 launch0.win.arr_inj c _ _ 3).trans (final m c)]
  funext i
  obtain ⟨r, e, rfl⟩ : ∃ (r : Fin 16384) (e : Fin 64), i = ix2 r e := ⟨i 0, i 1, eq_ix2 i⟩
  exact transpose_ix2_apply _ transposes_S64x16384_S16384x64_1_0 r e

/-- The run, read: the result at the gates of the launch arguments, the arguments unchanged. -/
theorem run : θ_run defs (onTc (τ := τ) (main (F := Ideal))) ⟨m, fun _ => 0, ρ⟩ fun r => ∀ c : Dev nD,
      r.2.mem ((c : Thread nD τ).loc main_v2) = gateArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.ArrayValue

end
-- ==== Proof.lean ====
/-
  A gating network: probs = softmax (x · Wᵀ + b) over 64 experts, for 16384 tokens of 4096 features.

  The kernel walks the tokens in 16 blocks of 1024; it keeps a bf16 copy of W in a scratch buffer, filled at the first
  block, forms each block's logits on the matrix unit in four slabs of 256 rows, takes the stable softmax of each row
  over the lanes, and writes the gates transposed (experts by tokens); the host transposes the result back.  The
  reference is jnp's  softmax (x @ W.T + b).

  Over the extended reals the two are one function, index by index: a narrowing to bf16 is the identity, a matrix
  product into a zero accumulator and the host's dot_general are the same sum over the 4096 features, a lane maximum
  and the host's reduce are the same fold of max from −∞, a lane sum and the host's reduce from 0 the same sum, exp and
  the quotient are the same operations on both sides, and tiling and the two transposes only move the numbers about.
  No law used here needs the inputs finite, so the precondition is never opened.

  The three frames: the two kernels' are the generated frame certificates; the reference's is its generated run with
  the result dropped.  The idealization rewrote nothing, so that conjunct is trivial.
-/
import proofs.«103294_g84026740178975_cont_sun_m_1402_37_alg».proof.Defs
import proofs.«103294_g84026740178975_cont_sun_m_1402_37_alg».proof.Proof.Gen.Kernel
import proofs.«103294_g84026740178975_cont_sun_m_1402_37_alg».proof.Proof.Gen.Kernel.Frame
import proofs.«103294_g84026740178975_cont_sun_m_1402_37_alg».proof.Proof.Gen.KernelIdeal
import proofs.«103294_g84026740178975_cont_sun_m_1402_37_alg».proof.Proof.Gen.KernelIdeal.Frame
import proofs.«103294_g84026740178975_cont_sun_m_1402_37_alg».proof.Proof.Gen.ReferenceIdeal
import proofs.«103294_g84026740178975_cont_sun_m_1402_37_alg».proof.Proof.Gen.ReferenceIdeal.Run
import proofs.«103294_g84026740178975_cont_sun_m_1402_37_alg».proof.Proof.Gen.ReferenceIdeal.Read
import proofs.«103294_g84026740178975_cont_sun_m_1402_37_alg».proof.Proof.Gen.Pre_finite_inputs
import proofs.«103294_g84026740178975_cont_sun_m_1402_37_alg».proof.Proof.RefSoftmax
import proofs.«103294_g84026740178975_cont_sun_m_1402_37_alg».proof.Proof.ArrayValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the gate array of the specification, of arguments that agree. -/
theorem algebraic : Cert.algebraic_KernelIdeal_ReferenceIdeal := by
  intro m ρ m' ρ' _ hagree
  refine ⟨fun c => Cert.Gating.gateArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
